-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x8192 : Shape := ⟨3, ![4, 1024, 8192]⟩
abbrev S8192x1024 : Shape := ⟨2, ![8192, 1024]⟩
abbrev S_ : Shape := ⟨0, ![]⟩

class Facts : Prop where
  bcast_S_S4x1024x8192 : S_.BroadcastsInDim S4x1024x8192 (![] : Fin 0 → Fin S4x1024x8192.rank)
  reducesTo_S4x1024x8192_S_d0_1_2 : S4x1024x8192.ReducesTo [0, 1, 2] S_
  h_S_ : 0 < S_.numel
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S4x1024x8192 .f32) (main_arg1 : FVec F S8192x1024 .f32) : IVec S_ 1 :=
  let main_v0 : FVec F S4x1024x8192 .f32 := Host.absf main_arg0
  let main_cst : FVec F S_ .f32 := constant S_ .f32 0x7F800000#32
  let main_v1 : FVec F S4x1024x8192 .f32 := broadcastInDim S4x1024x8192 ![] bcast_S_S4x1024x8192 main_cst
  let main_v2 : IVec S4x1024x8192 1 := cmpf .olt main_v0 main_v1
  let main_c : IVec S_ 1 := constantI S_ 1 1#1
  let main_v3 : IVec S_ 1 := (fun x v => Host.reduce IntOp.andi x v reducesTo_S4x1024x8192_S_d0_1_2 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Kernel.lean ====
abbrev S4x1024x8192 : Shape := ⟨3, ![4, 1024, 8192]⟩
abbrev S8192x1024 : Shape := ⟨2, ![8192, 1024]⟩
abbrev S2x128x8192 : Shape := ⟨3, ![2, 128, 8192]⟩
abbrev S8192x128 : Shape := ⟨2, ![8192, 128]⟩
abbrev S128x8192 : Shape := ⟨2, ![128, 8192]⟩
abbrev S1x128x8192 : Shape := ⟨3, ![1, 128, 8192]⟩

abbrev nBuf : Space → Nat
  | .hbm => 3
  | .vmem => 6
  | .smem => 0
  | _ => 0

abbrev bufTy : (tb : Table) → Fin (tcTables nBuf tb) → BufTy
  | .hbm, ⟨0, _⟩ => ⟨S4x1024x8192, .f32⟩
  | .hbm, ⟨1, _⟩ => ⟨S8192x1024, .f32⟩
  | .hbm, ⟨2, _⟩ => ⟨S4x1024x8192, .f32⟩
  | .local _ .vmem, ⟨0, _⟩ => ⟨S2x128x8192, .f32⟩
  | .local _ .vmem, ⟨1, _⟩ => ⟨S2x128x8192, .f32⟩
  | .local _ .vmem, ⟨2, _⟩ => ⟨S8192x128, .f32⟩
  | .local _ .vmem, ⟨3, _⟩ => ⟨S8192x128, .f32⟩
  | .local _ .vmem, ⟨4, _⟩ => ⟨S2x128x8192, .f32⟩
  | .local _ .vmem, ⟨5, _⟩ => ⟨S2x128x8192, .f32⟩
  | _, _ => ⟨S4x1024x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat, arg1.toNat]

abbrev stage0_0 : Fin 2 → Memref sig .tc .vmem S2x128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2x128x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

class Facts₀ : Prop where
  inb_S8192x128_S8192x128_0_0 : ∀ a, (![0, 0] : Fin 2 → Nat) a + S8192x128.size a ≤ S8192x128.size a
  h_S8192x128 : 0 < S8192x128.numel
  transposes_S8192x128_p1_0_S128x8192 : S8192x128.Transposes [1, 0] S128x8192
  inb_S2x128x8192_S2x128x8192_0_0_0 : ∀ a, (![0, 0, 0] : Fin 3 → Nat) a + S2x128x8192.size a ≤ S2x128x8192.size a
  h_S2x128x8192 : 0 < S2x128x8192.numel
  shapeCasts_S128x8192_S1x128x8192 : S128x8192.ShapeCasts S1x128x8192
  broadcasts_S1x128x8192_S2x128x8192 : S1x128x8192.Broadcasts S2x128x8192
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x128x8192.size a ≤ S4x1024x8192.size a
  hwx0_0 : ∀ i : grid0.Coords, EltTy.bits .f32 = 32 ∨ (Rect.block (s := S4x1024x8192) S2x128x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x1024.size a
  hwx0_1 : ∀ i : grid0.Coords, EltTy.bits .f32 = 32 ∨ (Rect.block (s := S8192x1024) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x128x8192.size a ≤ S4x1024x8192.size a
  hwx0_2 : ∀ i : grid0.Coords, EltTy.bits .f32 = 32 ∨ (Rect.block (s := S4x1024x8192) S2x128x8192.size (cc0_transform_2 i) (hinb0_2 i)).WholeWords (EltTy.packing .f32)

variable [Facts₀]

abbrev win0_0 : Pipeline.Window sig grid0 :=
  Pipeline.Window.ofSpec (Memref.whole main_arg0) S2x128x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2x128x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x1024x8192 : Shape := ⟨3, ![4, 1024, 8192]⟩
abbrev S8192x1024 : Shape := ⟨2, ![8192, 1024]⟩
abbrev S8192 : Shape := ⟨1, ![8192]⟩
abbrev S1x8192 : Shape := ⟨2, ![1, 8192]⟩
abbrev S4x8192 : Shape := ⟨2, ![4, 8192]⟩
abbrev S_ : Shape := ⟨0, ![]⟩
abbrev S4x8192x1 : Shape := ⟨3, ![4, 8192, 1]⟩
abbrev S1 : Shape := ⟨1, ![1]⟩
abbrev S1x1x1 : Shape := ⟨3, ![1, 1, 1]⟩
abbrev S4x8192x1024 : Shape := ⟨3, ![4, 8192, 1024]⟩

abbrev nBuf : Space → Nat
  | .hbm => 30
  | .vmem => 0
  | .smem => 0
  | _ => 0

abbrev bufTy : (tb : Table) → Fin (tcTables nBuf tb) → BufTy
  | .hbm, ⟨0, _⟩ => ⟨S4x1024x8192, .f32⟩
  | .hbm, ⟨1, _⟩ => ⟨S8192x1024, .f32⟩
  | .hbm, ⟨2, _⟩ => ⟨S8192, .i32⟩
  | .hbm, ⟨3, _⟩ => ⟨S1x8192, .i32⟩
  | .hbm, ⟨4, _⟩ => ⟨S4x8192, .i32⟩
  | .hbm, ⟨5, _⟩ => ⟨S_, .i32⟩
  | .hbm, ⟨6, _⟩ => ⟨S4x8192, .i32⟩
  | .hbm, ⟨7, _⟩ => ⟨S4x8192, .i1⟩
  | .hbm, ⟨8, _⟩ => ⟨S_, .i32⟩
  | .hbm, ⟨9, _⟩ => ⟨S4x8192, .i32⟩
  | .hbm, ⟨10, _⟩ => ⟨S4x8192, .i32⟩
  | .hbm, ⟨11, _⟩ => ⟨S4x8192, .i32⟩
  | .hbm, ⟨12, _⟩ => ⟨S4x8192x1, .i32⟩
  | .hbm, ⟨13, _⟩ => ⟨S1, .i32⟩
  | .hbm, ⟨14, _⟩ => ⟨S_, .i32⟩
  | .hbm, ⟨15, _⟩ => ⟨S4x8192x1, .i32⟩
  | .hbm, ⟨16, _⟩ => ⟨S4x8192x1, .i1⟩
  | .hbm, ⟨17, _⟩ => ⟨S1x1x1, .i32⟩
  | .hbm, ⟨18, _⟩ => ⟨S4x8192x1, .i32⟩
  | .hbm, ⟨19, _⟩ => ⟨S4x8192x1, .i1⟩
  | .hbm, ⟨20, _⟩ => ⟨S4x8192x1, .i1⟩
  | .hbm, ⟨21, _⟩ => ⟨S_, .i1⟩
  | .hbm, ⟨22, _⟩ => ⟨S4x8192, .i1⟩
  | .hbm, ⟨23, _⟩ => ⟨S4x8192x1024, .f32⟩
  | .hbm, ⟨24, _⟩ => ⟨S4x8192x1024, .i1⟩
  | .hbm, ⟨25, _⟩ => ⟨S_, .f32⟩
  | .hbm, ⟨26, _⟩ => ⟨S4x8192x1024, .f32⟩
  | .hbm, ⟨27, _⟩ => ⟨S4x8192x1024, .f32⟩
  | .hbm, ⟨28, _⟩ => ⟨S4x1024x8192, .f32⟩
  | .hbm, ⟨29, _⟩ => ⟨S4x1024x8192, .f32⟩
  | _, _ => ⟨S4x1024x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S4x8192_0_1 : S1x8192.BroadcastsInDim S4x8192 (![0, 1] : Fin 2 → Fin S4x8192.rank)
  bcast_S_S4x8192 : S_.BroadcastsInDim S4x8192 (![] : Fin 0 → Fin S4x8192.rank)
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S1_S1x1x1_2 : S1.BroadcastsInDim S1x1x1 (![2] : Fin 1 → Fin S1x1x1.rank)
  bcast_S1x1x1_S4x8192x1_0_1_2 : S1x1x1.BroadcastsInDim S4x8192x1 (![0, 1, 2] : Fin 3 → Fin S4x8192x1.rank)
  reducesTo_S4x8192x1_S4x8192_d2 : S4x8192x1.ReducesTo [2] S4x8192
  h_S_ : 0 < S_.numel
  bcast_S4x8192_S4x8192x1024_0_1 : S4x8192.BroadcastsInDim S4x8192x1024 (![0, 1] : Fin 2 → Fin S4x8192x1024.rank)
  bcast_S_S4x8192x1024 : S_.BroadcastsInDim S4x8192x1024 (![] : Fin 0 → Fin S4x8192x1024.rank)
  transposes_S4x8192x1024_S4x1024x8192_0_2_1 : S4x8192x1024.Transposes [0, 2, 1] S4x1024x8192
  gather_S8192x1024_S4x8192x1_S4x8192x1024_2_0_n_n_0_2_11024_wf : GatherDims.WF S8192x1024 S4x8192x1 S4x8192x1024 [2] [0] [] [0] [] 2 ![1, 1024]

variable [Facts₀]

def gather_S8192x1024_S4x8192x1_S4x8192x1024_2_0_n_n_0_2_11024 : GatherDims S8192x1024 S4x8192x1 S4x8192x1024 where
  offsetDims := [2]
  collapsedSliceDims := [0]
  operandBatchingDims := []
  startIndicesBatchingDims := []
  startIndexMap := [0]
  indexVectorDim := 2
  sliceSizes := ![1, 1024]
  wf := gather_S8192x1024_S4x8192x1_S4x8192x1024_2_0_n_n_0_2_11024_wf

class Facts : Prop extends Facts₀ where

variable [Facts]
-- ==== Proof.Spec.lean ====
/-
  The common value of both programs.  For an activation array `x` of shape [4, 1024, 8192] (batch, feature,
  position) and a table `pe` of shape [8192, 1024] (position, feature), the result at `(b, d, s)` is
  `x (b, d, s) + pe (s, d)`: the table, transposed, is added to every batch.  The kernel forms this sum block by
  block; the reference looks the table's rows up by the positions `0 … 8191` in order, transposes and adds.
  Only one addition is applied on either side and to the same two numbers, so no law of the extended reals is
  needed: the two sides are equal index by index at every float instance.
-/
import Idealize.ShloMosaic.PureOps

noncomputable section

namespace Cert.PosAdd

open Idealize.ShloMosaic

/-- The activations' and the result's shape: batch × feature × position. -/
abbrev SAct : Shape := ⟨3, ![4, 1024, 8192]⟩
/-- The table's shape: position × feature. -/
abbrev STbl : Shape := ⟨2, ![8192, 1024]⟩

/-- The table entry the result at `(b, d, s)` reads: row `s`, column `d`. -/
def tblAt (i : SAct.Idx) : STbl.Idx := fun a => match a with
  | ⟨0, _⟩ => ⟨(i 2).val, by have h : (i 2).val < 8192 := (i 2).isLt; exact h⟩
  | ⟨1, _⟩ => ⟨(i 1).val, by have h : (i 1).val < 1024 := (i 1).isLt; exact h⟩

theorem tblAt_zero (i : SAct.Idx) : (tblAt i 0).val = (i 2).val := rfl
theorem tblAt_one (i : SAct.Idx) : (tblAt i 1).val = (i 1).val := rfl

variable {F : FTy → Type} [FloatOps F]

/-- The result array as one function of the two argument arrays: `x (b, d, s) + pe (s, d)`. -/
abbrev posAdd (x : SAct.Idx → Elt F .f32) (pe : STbl.Idx → Elt F .f32) : SAct.Idx → Elt F .f32 :=
  fun i => FloatOps.addf (x i) (pe (tblAt i))

end Cert.PosAdd

end
-- ==== Proof.KernelSide.lean ====
/-
  The kernel's result array as one function of its two arguments.

  The launch walks a grid of 8 × 1 × 2 points.  At a point the activations' window and the result's window both
  sit at block (batch pair, feature block, 0) of size [2, 128, 8192], and the table's window at block
  (0, feature block) of size [8192, 128].  The body transposes the table's block, repeats it over the two batches
  of the block and adds it to the activations' block, so the entry it leaves at `(b', d', s)` of the block is
  `x-block (b', d', s) + table-block (s, d')`.  Read through the blocks' places in the arrays this is
  `x (b, d, s) + pe (s, d)` at the array index `(b, d, s)` under it: every point writes back its block of
  `Cert.PosAdd.posAdd`, and the sixteen blocks tile the result array.
-/
import proofs.«147013_g19473381720736_cont_8to1_602_13_alg».proof.Proof.Gen.KernelIdeal.Value
import proofs.«147013_g19473381720736_cont_8to1_602_13_alg».proof.Proof.Spec

noncomputable section

namespace Cert.KernelIdeal.Blocks

open Cert.KernelIdeal Cert.KernelIdeal.Gen Cert.KernelIdeal.Value Cert.PosAdd
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-- The three index maps, decided over the sixteen grid points: the activations' block index is the result's;
    the table's block index is the result's on the position axis and on the feature axis; and the result's block
    indices stay inside 2 × 8 × 1. -/
theorem index_maps : ∀ t : Fin cfg0.N,
    win0_0.index t (0 : Fin 3) = win0_2.index t (0 : Fin 3)
    ∧ win0_0.index t (1 : Fin 3) = win0_2.index t (1 : Fin 3)
    ∧ win0_0.index t (2 : Fin 3) = win0_2.index t (2 : Fin 3)
    ∧ win0_1.index t (0 : Fin 2) = win0_2.index t (2 : Fin 3)
    ∧ win0_1.index t (1 : Fin 2) = win0_2.index t (1 : Fin 3) :=
  (by decide +kernel : ∀ t : Fin grid0.N, _)

/-- Every block of the 2 × 8 × 1 tiling is some grid point's. -/
theorem every_block : ∀ (q0 : Fin 2) (q1 : Fin 8), ∃ t : Fin cfg0.N, win0_2.index t = ![q0.val, q1.val, 0] :=
  (by decide +kernel : ∀ (q0 : Fin 2) (q1 : Fin 8), ∃ t : Fin grid0.N, win0_2.index t = ![q0.val, q1.val, 0])

/-- What a grid point's body leaves in the result's block, entry by entry: the activations' block plus the table's
    block read transposed (the generated reading of the body's transpose, cast and broadcast). -/
theorem body_block (c : Dev nD) (t : Fin cfg0.N) :
    out0_2 (iblk m c 0 t) (iblk m c 1 t) = E2 (iblk m c 0 t) (iblk m c 1 t) := by
  unfold out0_2
  funext y
  rw [canon2_eq]
  simp only [View.ld_unit_zero (S := S2x128x8192) zero3, View.ld_unit_zero (S := S8192x128) zero2]

/-- WHAT POINT `t` WRITES BACK is block `t` of `x (b, d, s) + pe (s, d)`. -/
theorem written_block (c : Dev nD) (t : Fin cfg0.N) :
    (dats m 0 c).flushed 2 t
      = ((cfg0.win 2).blk t).view.read (Elt F) (posAdd (V m c main_arg0) (V m c main_arg1)) := by
  rw [flushed2, body_block]
  obtain ⟨e0, e1, e2, e3, e4⟩ := index_maps t
  funext j
  show FloatOps.addf (V m c main_arg0 (((cfg0.win 0).blk t).view.emb (ix2_0 j)))
        (V m c main_arg1 (((cfg0.win 1).blk t).view.emb (ix2_1 j)))
      = FloatOps.addf (V m c main_arg0 (((cfg0.win 2).blk t).view.emb j))
        (V m c main_arg1 (tblAt (((cfg0.win 2).blk t).view.emb j)))
  have h0 : ((cfg0.win 0).blk t).view.emb (ix2_0 j) = ((cfg0.win 2).blk t).view.emb j := by
    funext a; apply Fin.ext
    match a with
    | ⟨0, _⟩ => show win0_0.index t (0 : Fin 3) * 2 + 1 * (j 0).val = win0_2.index t (0 : Fin 3) * 2 + 1 * (j 0).val; omega
    | ⟨1, _⟩ => show win0_0.index t (1 : Fin 3) * 128 + 1 * (j 1).val = win0_2.index t (1 : Fin 3) * 128 + 1 * (j 1).val; omega
    | ⟨2, _⟩ => show win0_0.index t (2 : Fin 3) * 8192 + 1 * (j 2).val = win0_2.index t (2 : Fin 3) * 8192 + 1 * (j 2).val; omega
  have h1 : ((cfg0.win 1).blk t).view.emb (ix2_1 j) = tblAt (((cfg0.win 2).blk t).view.emb j) := by
    funext a; apply Fin.ext
    match a with
    | ⟨0, _⟩ => show win0_1.index t (0 : Fin 2) * 8192 + 1 * (j 2).val = win0_2.index t (2 : Fin 3) * 8192 + 1 * (j 2).val; omega
    | ⟨1, _⟩ => show win0_1.index t (1 : Fin 2) * 128 + 1 * (j 1).val = win0_2.index t (1 : Fin 3) * 128 + 1 * (j 1).val; omega
  rw [h0, h1]

/-- An index of the result array is in point `t`'s block iff each coordinate is in the block's range on its axis. -/
theorem mem_block (t : Fin cfg0.N) (i : S4x1024x8192.Idx) :
    i ∈ ((cfg0.win 2).blk t).view.set ↔ ∀ a : Fin 3, win0_2.index t a * S2x128x8192.size a ≤ (i a).val
      ∧ (i a).val < win0_2.index t a * S2x128x8192.size a + S2x128x8192.size a := by
  show i ∈ ((View.whole main_v0).slice (win0_2.rect t)).set ↔ _
  rw [View.set_slice_whole, Rect.mem_set_unit]
  exact Iff.rfl

/-- The blocks tile the result array: index `(b, d, s)` lies in the block (b / 2, d / 128, 0). -/
theorem covered (i : S4x1024x8192.Idx) :
    ∃ t : Fin cfg0.N, (cfg0.win 2).flush t = true ∧ i ∈ ((cfg0.win 2).blk t).view.set := by
  have hi0 : (i 0).val < 4 := (i 0).isLt
  have hi1 : (i 1).val < 1024 := (i 1).isLt
  have hi2 : (i 2).val < 8192 := (i 2).isLt
  obtain ⟨t, ht⟩ := every_block ⟨(i 0).val / 2, by omega⟩ ⟨(i 1).val / 128, by omega⟩
  have q0 : win0_2.index t (0 : Fin 3) = (i 0).val / 2 := congrFun ht 0
  have q1 : win0_2.index t (1 : Fin 3) = (i 1).val / 128 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 2 ≤ (i 0).val ∧ (i 0).val < win0_2.index t (0 : Fin 3) * 2 + 2; omega
  | ⟨1, _⟩ => show win0_2.index t (1 : Fin 3) * 128 ≤ (i 1).val ∧ (i 1).val < win0_2.index t (1 : Fin 3) * 128 + 128; omega
  | ⟨2, _⟩ => show win0_2.index t (2 : Fin 3) * 8192 ≤ (i 2).val ∧ (i 2).val < win0_2.index t (2 : Fin 3) * 8192 + 8192; omega

/-- THE RESULT ARRAY after the run is `x (b, d, s) + pe (s, d)` of the argument arrays as launched. -/
theorem final (c : Dev nD) :
    (dats m 0 c).arrAt 2 cfg0.N
      = posAdd (m ((c : Thread nD τ).loc main_arg0)) (m ((c : Thread nD τ).loc main_arg1)) :=
  (dats m 0 c).arrAt_eq_of_cover 2 (posAdd (V m c main_arg0) (V m c main_arg1))
    (fun t _ => written_block m c t) covered

/-- The kernel's run, read: the result at that function of the arguments, the arguments unchanged. -/
theorem run : θ_run defs (onTc (τ := τ) (main (F := F))) ⟨m, fun _ => 0, ρ⟩ fun r => ∀ c : Dev nD,
      r.2.mem ((c : Thread nD τ).loc main_v0)
        = posAdd (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Blocks

end
-- ==== Proof.RefRun.lean ====
/-
  The reference program as a straight line, and its run.

  @main computes the positions `0 … 8191` (an iota), repeats them over the four batches, looks the table's rows up at
  them (the outlined `_take`: negative positions wrapped by adding 8192 through the outlined `_where`, the lookup
  itself a gather, entries whose position falls outside `[0, 8191]` replaced by a filler), transposes the looked-up
  rows and adds them to the activations.  With the two outlined functions' bodies written in place of their calls
  this is a list of 28 host operations; every weakly fair execution runs them in order and leaves each buffer at the
  operations' fold over the launch contents.
-/
import proofs.«147013_g19473381720736_cont_8to1_602_13_alg».proof.Proof.Gen.ReferenceIdeal
import Idealize.ShloMosaic.Lib.StableHlo.Run

noncomputable section

namespace Cert.ReferenceIdeal.Lookup

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the bodies of `_take` and (inside it) `_where` in place of their calls, over the
    buffers each call names. -/
abbrev ops : List (HloOp τ sig (Elt F)) :=
  [ nullary main_v0 (iotaInDim S8192 32 0),
    unary main_v0 main_v1 (broadcastInDim S1x8192 ![1] bcast_S8192_S1x8192_1 : (⟨S8192, .i32⟩ : BufTy).Contents (Elt F) → (⟨S1x8192, .i32⟩ : BufTy).Contents (Elt F)),
    unary main_v1 main_v2 (broadcastInDim S4x8192 ![0, 1] bcast_S1x8192_S4x8192_0_1 : (⟨S1x8192, .i32⟩ : BufTy).Contents (Elt F) → (⟨S4x8192, .i32⟩ : BufTy).Contents (Elt F)),
    TRef.nullary main_call0.c (constantI S_ 32 0#32),
    TRef.unary main_call0.c main_call0.v0 (broadcastInDim S4x8192 ![] bcast_S_S4x8192),
    TRef.binary (.of main_v2) main_call0.v0 main_call0.v1 (cmpi .slt),
    TRef.nullary main_call0.c_0 (constantI S_ 32 8192#32),
    TRef.unary main_call0.c_0 main_call0.v2 (broadcastInDim S4x8192 ![] bcast_S_S4x8192),
    TRef.binary (.of main_v2) main_call0.v2 main_call0.v3 addi,
    TRef.ternary main_call0.v1 main_call0.v3 (.of main_v2) main_call0.call0.v0 select,
    TRef.unary main_call0.call0.v0 main_call0.v5 (broadcastInDim S4x8192x1 ![0, 1] bcast_S4x8192_S4x8192x1_0_1),
    TRef.nullary main_call0.c_1 (constantI S1 32 8191#32),
    TRef.nullary main_call0.c_2 (constantI S_ 32 0#32),
    TRef.unary main_call0.c_2 main_call0.v6 (broadcastInDim S4x8192x1 ![] bcast_S_S4x8192x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4x8192x1 ![0, 1, 2] bcast_S1x1x1_S4x8192x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4x8192x1_S4x8192_d2 h_S_),
    TRef.binary (.of main_arg1) main_call0.v5 main_call0.v13 (fun x i => Host.gather gather_S8192x1024_S4x8192x1_S4x8192x1024_2_0_n_n_0_2_11024 x i),
    TRef.unary main_call0.v12 main_call0.v14 (broadcastInDim S4x8192x1024 ![0, 1] bcast_S4x8192_S4x8192x1024_0_1),
    TRef.nullary main_call0.cst (constant S_ .f32 0x7FC00000#32),
    TRef.unary main_call0.cst main_call0.v15 (broadcastInDim S4x8192x1024 ![] bcast_S_S4x8192x1024),
    TRef.ternary main_call0.v14 main_call0.v13 main_call0.v15 main_call0.v16 select,
    unary main_v3 main_v4 ((transpose S4x1024x8192 [0, 2, 1] · transposes_S4x8192x1024_S4x1024x8192_0_2_1) : (⟨S4x8192x1024, .f32⟩ : BufTy).Contents (Elt F) → (⟨S4x1024x8192, .f32⟩ : BufTy).Contents (Elt F)),
    binary main_arg0 main_v4 main_v5 (addf : (⟨S4x1024x8192, .f32⟩ : BufTy).Contents (Elt F) → (⟨S4x1024x8192, .f32⟩ : BufTy).Contents (Elt F) → (⟨S4x1024x8192, .f32⟩ : BufTy).Contents (Elt F)) ]

set_option maxRecDepth 1024 in
/-- @main is that straight line: the two functions' definitions unfolded at their calls, both sides are one chain of
    host steps once sequencing is reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., nullary_bufs_sub .., unary_bufs_sub .., binary_bufs_sub ..,
    nullary_bufs_sub .., unary_bufs_sub .., binary_bufs_sub .., ternary_bufs_sub .., unary_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub .., unary_bufs_sub .., binary_bufs_sub ..⟩

/-- At the compiled mesh, for any float values, from any memory with zero counters: every weakly fair execution of
    @main terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Lookup

end
-- ==== Proof.RefValue.lean ====
/-
  What the reference's operations compute, read at an index.

  The positions are the words of `0 … 8191`, the same for every batch.  Such a word is non-negative as a signed
  number, so the wrap of negative positions leaves it alone; it lies in `[0, 8191]`, so the range test passes at
  every entry and the filler is never chosen; and the gather's clamp into `[0, 8191]` leaves it alone, so the
  lookup at `(b, s, d)` is the table's entry `(s, d)`.  Transposed to `(b, d, s)` and added to the activations
  this is `x (b, d, s) + pe (s, d)`: the function `Cert.PosAdd.posAdd` of the two arguments.
-/
import proofs.«147013_g19473381720736_cont_8to1_602_13_alg».proof.Proof.RefRun
import proofs.«147013_g19473381720736_cont_8to1_602_13_alg».proof.Proof.Spec
import Idealize.ShloMosaic.Lib.ValueIdx
import Idealize.ShloMosaic.Lib.ValueLayout
import Idealize.ShloMosaic.Lib.Pipeline.Value
import Idealize.ShloMosaic.Lib.Affine
import Idealize.ShloMosaic.PureOps.Reduce

noncomputable section

namespace Cert.ReferenceIdeal.Lookup

open Cert.ReferenceIdeal Cert.ReferenceIdeal.Gen Cert.PosAdd
open Idealize.ShloMosaic Idealize.ShloMosaic.TcCoe Idealize.ShloMosaic.ValueIdx Idealize.ShloMosaic.StableHlo Idealize.SL.Sem

/-! ## The words of small positions -/

/-- The word of a position below 8192, read signed, is the position. -/
theorem toInt_pos (n : Nat) (h : n < 8192) : (BitVec.ofNat 32 n).toInt = (n : Int) := by
  have hn : (BitVec.ofNat 32 n).toNat = n := by rw [BitVec.toNat_ofNat]; exact Nat.mod_eq_of_lt (by omega)
  have e := BitVec.toInt_eq_toNat_cond (BitVec.ofNat 32 n)
  rw [hn] at e
  rw [e, if_pos (by omega)]

/-- It is not negative, so the wrap `p < 0 ? p + 8192 : p` keeps it. -/
theorem wrap_pos (n : Nat) (h : n < 8192) :
    Scalar.select (IntOp.cmpi .slt (BitVec.ofNat 32 n) 0#32) (IntOp.addi (BitVec.ofNat 32 n) 8192#32) (BitVec.ofNat 32 n)
      = BitVec.ofNat 32 n := by
  have hlt : IntOp.cmpi .slt (BitVec.ofNat 32 n) 0#32 = 0#1 :=
    eq_zero_of_ne_one fun h1 => by
      have := IntOp.cmpi_slt.mp h1
      rw [toInt_pos n h] at this
      have h0 : (0#32 : BitVec 32).toInt = 0 := by decide
      omega
  rw [hlt, select_zero]

/-- It is at least zero … -/
theorem pos_ge (n : Nat) (h : n < 8192) : IntOp.cmpi .sge (BitVec.ofNat 32 n) 0#32 = 1#1 :=
  IntOp.cmpi_sge.mpr (by
    rw [toInt_pos n h]
    have h0 : (0#32 : BitVec 32).toInt = 0 := by decide
    omega)

/-- … and at most 8191. -/
theorem pos_le (n : Nat) (h : n < 8192) : IntOp.cmpi .sle (BitVec.ofNat 32 n) 8191#32 = 1#1 :=
  IntOp.cmpi_sle.mpr (by
    rw [toInt_pos n h]
    have h0 : (8191#32 : BitVec 32).toInt = 8191 := by decide
    omega)

/-- A left fold by `and` from 1 over words that are all 1 is 1. -/
theorem foldl_andi_one {ι : Type} (f : ι → BitVec 1) (hf : ∀ n, f n = 1#1) :
    ∀ (l : List ι) (init : BitVec 1), init = 1#1 → l.foldl (fun r n => IntOp.andi r (f n)) init = 1#1
  | [], _, h => h
  | a :: l, init, h => by
    rw [List.foldl_cons]
    exact foldl_andi_one f hf l _ (by rw [h, hf a]; decide)

/-! ## The reference's intermediate arrays -/

/-- The positions `0 … 8191`, repeated over the four batches. -/
def positions : IVec S4x8192 32 :=
  broadcastInDim S4x8192 ![0, 1] bcast_S1x8192_S4x8192_0_1 (broadcastInDim S1x8192 ![1] bcast_S8192_S1x8192_1 (iotaInDim S8192 32 0))

/-- The positions after the wrap of negative ones. -/
def wrapped : IVec S4x8192 32 :=
  select (cmpi .slt positions (broadcastInDim S4x8192 ![] bcast_S_S4x8192 (constantI S_ 32 0#32)))
    (addi positions (broadcastInDim S4x8192 ![] bcast_S_S4x8192 (constantI S_ 32 8192#32))) positions

/-- The gather's start indices: one row number per (batch, position). -/
def starts : IVec S4x8192x1 32 := broadcastInDim S4x8192x1 ![0, 1] bcast_S4x8192_S4x8192x1_0_1 wrapped

/-- The range test: is the row number in `[0, 8191]`, per (batch, position). -/
def inRange : IVec S4x8192 1 :=
  Host.reduce IntOp.andi
    (andi (cmpi .sge starts (broadcastInDim S4x8192x1 ![] bcast_S_S4x8192x1 (constantI S_ 32 0#32)))
      (cmpi .sle starts (broadcastInDim S4x8192x1 ![0, 1, 2] bcast_S1x1x1_S4x8192x1_0_1_2
        (broadcastInDim S1x1x1 ![2] bcast_S1_S1x1x1_2 (constantI S1 32 8191#32)))))
    (constantI S_ 1 1#1) reducesTo_S4x8192x1_S4x8192_d2 h_S_

variable {F : FTy → Type} [FloatOps F]

/-- The looked-up rows, [batch, position, feature]: the gathered row where the range test passes, a filler elsewhere. -/
def looked (pe : FVec F S8192x1024 .f32) : FVec F S4x8192x1024 .f32 :=
  select (broadcastInDim S4x8192x1024 ![0, 1] bcast_S4x8192_S4x8192x1024_0_1 inRange)
    (Host.gather gather_S8192x1024_S4x8192x1_S4x8192x1024_2_0_n_n_0_2_11024 pe starts)
    (broadcastInDim S4x8192x1024 ![] bcast_S_S4x8192x1024 (constant S_ .f32 0x7FC00000#32))

/-- The reference's result: the activations plus the looked-up rows transposed to [batch, feature, position]. -/
def result (x : FVec F S4x1024x8192 .f32) (pe : FVec F S8192x1024 .f32) : FVec F S4x1024x8192 .f32 :=
  addf x (transpose S4x1024x8192 [0, 2, 1] (looked pe) transposes_S4x8192x1024_S4x1024x8192_0_2_1)

/-! ## Read at an index -/

theorem positions_apply (b : Fin 4) (s : Fin 8192) : positions (ix2 b s) = BitVec.ofNat 32 s.val := rfl

theorem wrapped_apply (b : Fin 4) (s : Fin 8192) : wrapped (ix2 b s) = BitVec.ofNat 32 s.val := by
  show Scalar.select (IntOp.cmpi .slt (positions (ix2 b s)) 0#32) (IntOp.addi (positions (ix2 b s)) 8192#32) (positions (ix2 b s)) = _
  rw [positions_apply]
  exact wrap_pos s.val s.isLt

theorem starts_apply (b : Fin 4) (s : Fin 8192) (u : Fin 1) : starts (ix3 b s u) = BitVec.ofNat 32 s.val := by
  unfold starts
  refine (broadcastInDim_apply _ _ _ (ix3 b s u) (ix2 b s) (fun a => match a with
    | ⟨0, _⟩ => by show b.val = (if (4 : Nat) = 1 then 0 else b.val); rw [if_neg (by decide)]
    | ⟨1, _⟩ => by show s.val = (if (8192 : Nat) = 1 then 0 else s.val); rw [if_neg (by decide)])).trans ?_
  exact wrapped_apply b s

/-- The range test passes everywhere. -/
theorem inRange_apply (j : S4x8192.Idx) : inRange j = 1#1 := by
  unfold inRange
  rw [Host.reduce_eq_foldl]
  refine foldl_andi_one _ (fun i => ?_) _ _ rfl
  obtain ⟨b, s, u, rfl⟩ : ∃ (b : Fin 4) (s : Fin 8192) (u : Fin 1), i = ix3 b s u := ⟨i 0, i 1, i 2, eq_ix3 i⟩
  show IntOp.andi (IntOp.cmpi .sge (starts (ix3 b s u)) 0#32) (IntOp.cmpi .sle (starts (ix3 b s u)) 8191#32) = 1#1
  rw [starts_apply, pos_ge s.val s.isLt, pos_le s.val s.isLt]
  decide

/-- The gather at `(b, s, d)` reads the table's entry `(s, d)`. -/
theorem gather_apply (pe : FVec F S8192x1024 .f32) (b : Fin 4) (s : Fin 8192) (d : Fin 1024) :
    Host.gather gather_S8192x1024_S4x8192x1_S4x8192x1024_2_0_n_n_0_2_11024 pe starts (ix3 b s d) = pe (ix2 s d) := by
  unfold Host.gather
  refine congrArg pe (funext fun a => Fin.ext ?_)
  match a with
  | ⟨0, _⟩ =>
    show gather_S8192x1024_S4x8192x1_S4x8192x1024_2_0_n_n_0_2_11024.start (ix3 b s d) starts 0 + gather_S8192x1024_S4x8192x1_S4x8192x1024_2_0_n_n_0_2_11024.batchCoord (ix3 b s d) 0 + gather_S8192x1024_S4x8192x1_S4x8192x1024_2_0_n_n_0_2_11024.offCoord (ix3 b s d) 0 = s.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S8192x1024_S4x8192x1_S4x8192x1024_2_0_n_n_0_2_11024.startIndexMap from List.mem_singleton.mpr rfl)]
    have hsi : gather_S8192x1024_S4x8192x1_S4x8192x1024_2_0_n_n_0_2_11024.siIdx (ix3 b s d) ⟨List.idxOf (0 : Fin 2) gather_S8192x1024_S4x8192x1_S4x8192x1024_2_0_n_n_0_2_11024.startIndexMap,
        List.idxOf_lt_length_iff.2 (List.mem_singleton.mpr rfl)⟩ = ix3 b s (0 : Fin 1) := by
      funext c; refine Fin.ext ?_
      match c with
      | ⟨0, _⟩ => rfl
      | ⟨1, _⟩ => rfl
      | ⟨2, _⟩ => rfl
    rw [hsi, starts_apply, toInt_pos s.val s.isLt]
    show min (Int.toNat (s.val : Int)) (8192 - 1) = s.val
    have hs := s.isLt
    rw [Int.toNat_natCast]
    omega
  | ⟨1, _⟩ =>
    show gather_S8192x1024_S4x8192x1_S4x8192x1024_2_0_n_n_0_2_11024.start (ix3 b s d) starts 1 + gather_S8192x1024_S4x8192x1_S4x8192x1024_2_0_n_n_0_2_11024.batchCoord (ix3 b s d) 1 + gather_S8192x1024_S4x8192x1_S4x8192x1024_2_0_n_n_0_2_11024.offCoord (ix3 b s d) 1 = d.val
    rw [GatherDims.batchCoord_eq_zero _ _ _ List.not_mem_nil]
    unfold GatherDims.start
    rw [dif_neg (show (1 : Fin 2) ∉ gather_S8192x1024_S4x8192x1_S4x8192x1024_2_0_n_n_0_2_11024.startIndexMap from by decide)]
    simp only [Nat.add_zero, Nat.zero_add]
    rfl

/-- The range test, repeated along the features, passes everywhere. -/
theorem mask_apply (j : S4x8192x1024.Idx) :
    broadcastInDim S4x8192x1024 ![0, 1] bcast_S4x8192_S4x8192x1024_0_1 inRange j = 1#1 := by
  unfold broadcastInDim
  exact inRange_apply _

/-- The looked-up rows at `(b, s, d)` are the table's entry `(s, d)`: the filler is never chosen. -/
theorem looked_apply (pe : FVec F S8192x1024 .f32) (b : Fin 4) (s : Fin 8192) (d : Fin 1024) :
    looked pe (ix3 b s d) = pe (ix2 s d) := by
  unfold looked
  rw [select_apply, mask_apply, select_one, gather_apply]

/-- The table entry the result at `(b, d, s)` reads is `(s, d)`. -/
theorem tblAt_ix3 (b : Fin 4) (d : Fin 1024) (s : Fin 8192) : tblAt (ix3 b d s) = ix2 s d := by
  funext a; match a with | ⟨0, _⟩ => rfl | ⟨1, _⟩ => rfl

/-- THE REFERENCE'S RESULT is `x (b, d, s) + pe (s, d)`. -/
theorem result_eq (x : FVec F S4x1024x8192 .f32) (pe : FVec F S8192x1024 .f32) : result x pe = posAdd x pe := by
  funext i
  obtain ⟨b, d, s, rfl⟩ : ∃ (b : Fin 4) (d : Fin 1024) (s : Fin 8192), i = ix3 b d s := ⟨i 0, i 1, i 2, eq_ix3 i⟩
  show FloatOps.addf (x (ix3 b d s)) (transpose S4x1024x8192 [0, 2, 1] (looked pe) transposes_S4x8192x1024_S4x1024x8192_0_2_1 (ix3 b d s))
    = FloatOps.addf (x (ix3 b d s)) (pe (tblAt (ix3 b d s)))
  refine congrArg _ ((ValueIdx.transpose_ix3_021_apply (looked pe) transposes_S4x8192x1024_S4x1024x8192_0_2_1 b d s).trans ?_)
  rw [looked_apply, tblAt_ix3]

/-! ## The run's buffers -/

attribute [local irreducible] Host.reduce Host.gather in
/-- The fold at the result buffer is `result` of the arguments' contents, by computation. -/
theorem out_eq (V : Valuation τ sig (Elt F)) :
    after ops V (main_v5 : DevRef τ sig) = result (V (main_arg0 : DevRef τ sig)) (V (main_arg1 : DevRef τ sig)) := by
  unfold result looked inRange starts wrapped positions
  after_results_simp
  rfl

theorem arg0_eq (V : Valuation τ sig (Elt F)) : after ops V (main_arg0 : DevRef τ sig) = V (main_arg0 : DevRef τ sig) := by
  simp only [after_cons, after_nil]
  rfl

theorem arg1_eq (V : Valuation τ sig (Elt F)) : after ops V (main_arg1 : DevRef τ sig) = V (main_arg1 : DevRef τ sig) := by
  simp only [after_cons, after_nil]
  rfl

/-- The reference's run, read: the result at `x (b, d, s) + pe (s, d)` of the arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v5)
        = posAdd (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c main_v5).trans (out_eq _)).trans (result_eq _ _),
      (h c main_arg0).trans (arg0_eq _), (h c main_arg1).trans (arg1_eq _)⟩)
    (run_main m ρ)

end Cert.ReferenceIdeal.Lookup

end
-- ==== Proof.lean ====
/-
  The proof of `Cert.Claim`: a Pallas kernel that adds a transposed positional table to every batch of an
  activation array, against a reference that looks the table's rows up at the positions `0 … 8191`, transposes
  and adds.

  Both programs end with the result array at `x (b, d, s) + pe (s, d)` (`Cert.PosAdd.posAdd`, Proof/Spec.lean):
    * the kernel, because every grid point writes back its [2, 128, 8192] block of that function — the body adds the
      table's [8192, 128] block, transposed and repeated over the block's two batches, to the activations' block —
      and the sixteen blocks tile the array (Proof/KernelSide.lean, over the generated frame run and the generated
      reading of the body's block);
    * the reference, because its positions are the words of `0 … 8191`, which the wrap of negative positions, the
      range test and the gather's clamp all leave alone, so that its lookup at `(b, s, d)` is the table's entry
      `(s, d)` (Proof/RefRun.lean: the run of its 28 host operations; Proof/RefValue.lean: the read at an index).
  Each side applies one addition, to the same two numbers, so the results agree at every float instance and no
  law of the extended reals — and nothing of the precondition — is used.  The two kernel frames are the generated
  ones; the reference's frame is its run with the result dropped; the ideal pass rewrote nothing, so `preserves`
  is trivial.
-/
import proofs.«147013_g19473381720736_cont_8to1_602_13_alg».proof.Defs
import proofs.«147013_g19473381720736_cont_8to1_602_13_alg».proof.Proof.Gen.Kernel
import proofs.«147013_g19473381720736_cont_8to1_602_13_alg».proof.Proof.Gen.Kernel.Frame
import proofs.«147013_g19473381720736_cont_8to1_602_13_alg».proof.Proof.Gen.KernelIdeal
import proofs.«147013_g19473381720736_cont_8to1_602_13_alg».proof.Proof.Gen.KernelIdeal.Frame
import proofs.«147013_g19473381720736_cont_8to1_602_13_alg».proof.Proof.Gen.ReferenceIdeal
import proofs.«147013_g19473381720736_cont_8to1_602_13_alg».proof.Proof.Gen.Pre_finite_inputs
import proofs.«147013_g19473381720736_cont_8to1_602_13_alg».proof.Proof.KernelSide
import proofs.«147013_g19473381720736_cont_8to1_602_13_alg».proof.Proof.RefValue

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame: its run, the result's clause dropped. -/
theorem frame_reference : Cert.frame_ReferenceIdeal := fun m ρ _ =>
  (θ_run Cert.ReferenceIdeal.defs _ _).mono (fun _ h c => (h c).2) (Cert.ReferenceIdeal.Lookup.run (F := Ideal) m ρ)

/-- The ideal pass rewrote no operation of the kernel. -/
theorem preserves : Cert.preserves_Kernel_KernelIdeal := trivial

/-- At `Ideal` the kernel's result array ends at `x (b, d, s) + pe (s, d)` of its arguments and the reference's at the
    same function of its own, which are the kernel's. -/
theorem algebraic : Cert.algebraic_KernelIdeal_ReferenceIdeal := by
  intro m ρ m' ρ' _ hagree
  refine ⟨_, Cert.KernelIdeal.Blocks.run (F := Ideal) m ρ, ?_⟩
  refine (θ_run Cert.ReferenceIdeal.defs _ _).mono (fun _ h c => ⟨(h c).1.trans ?_, (h c).2⟩)
    (Cert.ReferenceIdeal.Lookup.run (F := Ideal) m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
